-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S16x4096 .f32) (main_arg5 : FVec F S4096x16 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S1x4096 .f32) (main_arg4 : FVec F S16x4096 .f32) (main_arg5 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S4096x256 : Shape := ⟨2, ![4096, 256]⟩
abbrev S16x256 : Shape := ⟨2, ![16, 256]⟩
abbrev S1x256 : Shape := ⟨2, ![1, 256]⟩
abbrev S256 : Shape := ⟨1, ![256]⟩
abbrev S8192x4096 : Shape := ⟨2, ![8192, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16x4096, .f32⟩
  | .hbm, ⟨5, _⟩ => ⟨S4096x16, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S4096x256, .f32⟩
  | .local _ .vmem, ⟨1, _⟩ => ⟨S4096x256, .f32⟩
  | .local _ .vmem, ⟨2, _⟩ => ⟨S4096x16, .f32⟩
  | .local _ .vmem, ⟨3, _⟩ => ⟨S16x256, .f32⟩
  | .local _ .vmem, ⟨4, _⟩ => ⟨S16x256, .f32⟩
  | .local _ .vmem, ⟨5, _⟩ => ⟨S1x256, .f32⟩
  | .local _ .vmem, ⟨6, _⟩ => ⟨S1x256, .f32⟩
  | .local _ .vmem, ⟨7, _⟩ => ⟨S4096x256, .bf16⟩
  | .local _ .vmem, ⟨8, _⟩ => ⟨S4096x256, .bf16⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | .local _ .vmem, ⟨12, _⟩ => ⟨S512x4096, .bf16⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S4096x16_S4096x16_0_0 : ∀ a, (![0, 0] : Fin 2 → Nat) a + S4096x16.size a ≤ S4096x16.size a
  h_S4096x16 : 0 < S4096x16.numel
  inb_S16x256_S16x256_0_0 : ∀ a, (![0, 0] : Fin 2 → Nat) a + S16x256.size a ≤ S16x256.size a
  h_S16x256 : 0 < S16x256.numel
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S4096x16_S16x256_S4096x256_1_0_0_1_n_n_wf : DotDims.WF S4096x16 S16x256 S4096x256 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .bf16 = 32 ∨ (Rect.block (s := S4096x4096) S4096x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S_ : Shape := ⟨0, ![]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16x4096, .f32⟩
  | .hbm, ⟨5, _⟩ => ⟨S4096x16, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the adapter, stated once over the extended reals.

  A weight matrix `w` (rows = output features, columns = input features) receives a low-rank update
  `16 · (B · A)`; every COLUMN of the updated matrix is divided by its Euclidean norm (the square root of the sum of
  the squares down the column) and multiplied by the column's magnitude `mv`. The re-normalised matrix then serves as
  the weight of a linear layer, `x · Wᵀ + bias`.

  Everything is stated per entry. An entry `(o, i)` of the re-normalised matrix depends on column `i` of `w`, column
  `i` of `A`, entry `i` of `mv` and all of `B` — nothing else — which is what lets a block of columns be computed
  from the matching blocks of the operands (`renorm_of_cols`).
-/
import Idealize.ShloMosaic.PureOps.Ideal
import Idealize.ShloMosaic.PureOps.Ideal.Laws
import Idealize.ShloMosaic.Lib.ValueIdx

open scoped BigOperators

noncomputable section

namespace Cert.DoraSpec

open Idealize.ShloMosaic Idealize.ShloMosaic.ValueIdx

variable {R K C C' : ℕ}

/-- The scale of the low-rank update: the single-precision word of sixteen, read as an extended real. -/
abbrev scale : EReal := Ideal.ofBits .f32 0x41800000#32

/-- Entry `(o, i)` of the updated matrix `w + 16 · (B · A)`. -/
def updated (w : (⟨2, ![R, C]⟩ : Shape).Idx → EReal) (B : (⟨2, ![R, K]⟩ : Shape).Idx → EReal)
    (A : (⟨2, ![K, C]⟩ : Shape).Idx → EReal) (o : Fin R) (i : Fin C) : EReal :=
  w (ix2 o i) + scale * ∑ r : Fin K, B (ix2 o r) * A (ix2 r i)

/-- The Euclidean norm of column `i` of the updated matrix. -/
def colNorm (w : (⟨2, ![R, C]⟩ : Shape).Idx → EReal) (B : (⟨2, ![R, K]⟩ : Shape).Idx → EReal)
    (A : (⟨2, ![K, C]⟩ : Shape).Idx → EReal) (i : Fin C) : EReal :=
  Ideal.sqrt (∑ o : Fin R, updated w B A o i * updated w B A o i)

/-- Entry `(o, i)` of the re-normalised matrix: the column's magnitude times the entry over the column's norm. -/
def renorm (w : (⟨2, ![R, C]⟩ : Shape).Idx → EReal) (B : (⟨2, ![R, K]⟩ : Shape).Idx → EReal)
    (A : (⟨2, ![K, C]⟩ : Shape).Idx → EReal) (mv : (⟨2, ![1, C]⟩ : Shape).Idx → EReal) (o : Fin R) (i : Fin C) : EReal :=
  mv (ix2 0 i) * Ideal.div (updated w B A o i) (colNorm w B A i)

/-- An entry of the updated matrix is determined by row `o` of `B` and the operands' column it sits in. -/
theorem updated_of_cols (w : (⟨2, ![R, C]⟩ : Shape).Idx → EReal) (B : (⟨2, ![R, K]⟩ : Shape).Idx → EReal)
    (A : (⟨2, ![K, C]⟩ : Shape).Idx → EReal) (w' : (⟨2, ![R, C']⟩ : Shape).Idx → EReal)
    (B' : (⟨2, ![R, K]⟩ : Shape).Idx → EReal) (A' : (⟨2, ![K, C']⟩ : Shape).Idx → EReal) (i : Fin C) (i' : Fin C')
    (hw : ∀ o : Fin R, w' (ix2 o i') = w (ix2 o i)) (hB : ∀ (o : Fin R) (r : Fin K), B' (ix2 o r) = B (ix2 o r))
    (hA : ∀ r : Fin K, A' (ix2 r i') = A (ix2 r i)) (o : Fin R) :
    updated w' B' A' o i' = updated w B A o i := by
  unfold updated
  rw [hw o]
  exact congrArg (fun s => w (ix2 o i) + scale * s) (Finset.sum_congr rfl fun r _ => by rw [hA r, hB o r])

/-- An entry of the re-normalised matrix is determined by `B` and the operands' column it sits in: a block of columns
    of the result is the same function of the matching blocks of the operands. -/
theorem renorm_of_cols (w : (⟨2, ![R, C]⟩ : Shape).Idx → EReal) (B : (⟨2, ![R, K]⟩ : Shape).Idx → EReal)
    (A : (⟨2, ![K, C]⟩ : Shape).Idx → EReal) (mv : (⟨2, ![1, C]⟩ : Shape).Idx → EReal)
    (w' : (⟨2, ![R, C']⟩ : Shape).Idx → EReal) (B' : (⟨2, ![R, K]⟩ : Shape).Idx → EReal)
    (A' : (⟨2, ![K, C']⟩ : Shape).Idx → EReal) (mv' : (⟨2, ![1, C']⟩ : Shape).Idx → EReal) (i : Fin C) (i' : Fin C')
    (hw : ∀ o : Fin R, w' (ix2 o i') = w (ix2 o i)) (hB : ∀ (o : Fin R) (r : Fin K), B' (ix2 o r) = B (ix2 o r))
    (hA : ∀ r : Fin K, A' (ix2 r i') = A (ix2 r i)) (hm : mv' (ix2 0 i') = mv (ix2 0 i)) (o : Fin R) :
    renorm w' B' A' mv' o i' = renorm w B A mv o i := by
  unfold renorm colNorm
  rw [hm, updated_of_cols w B A w' B' A' i i' hw hB hA o]
  refine congrArg (fun s => mv (ix2 0 i) * Ideal.div (updated w B A o i) (Ideal.sqrt s)) ?_
  exact Finset.sum_congr rfl fun o' _ => by rw [updated_of_cols w B A w' B' A' i i' hw hB hA o']

/-- Entry `(p, q)` of the linear layer `x · Wᵀ + bias`, the bias given as one row. -/
def linear {M N D : ℕ} (x : (⟨2, ![M, D]⟩ : Shape).Idx → EReal) (W : (⟨2, ![N, D]⟩ : Shape).Idx → EReal)
    (b : (⟨2, ![1, N]⟩ : Shape).Idx → EReal) (p : Fin M) (q : Fin N) : EReal :=
  (∑ k : Fin D, x (ix2 p k) * W (ix2 q k)) + b (ix2 0 q)

/-- An entry of the linear layer is determined by row `p` of the input, row `q` of the weight and entry `q` of the
    bias: a block of the result is the same function of the matching row blocks of the operands. -/
theorem linear_of_rows {M N D M' N' : ℕ} (x : (⟨2, ![M, D]⟩ : Shape).Idx → EReal) (W : (⟨2, ![N, D]⟩ : Shape).Idx → EReal)
    (b : (⟨2, ![1, N]⟩ : Shape).Idx → EReal) (x' : (⟨2, ![M', D]⟩ : Shape).Idx → EReal)
    (W' : (⟨2, ![N', D]⟩ : Shape).Idx → EReal) (b' : (⟨2, ![1, N']⟩ : Shape).Idx → EReal) (p : Fin M) (q : Fin N)
    (p' : Fin M') (q' : Fin N') (hx : ∀ k : Fin D, x' (ix2 p' k) = x (ix2 p k))
    (hW : ∀ k : Fin D, W' (ix2 q' k) = W (ix2 q k)) (hb : b' (ix2 0 q') = b (ix2 0 q)) :
    linear x' W' b' p' q' = linear x W b p q := by
  unfold linear
  rw [hb]
  exact congrArg (· + b (ix2 0 q)) (Finset.sum_congr rfl fun k _ => by rw [hx k, hW k])

/-- THE RESULT: entry `(b, s, o)` of the adapter's output — row `(b, s)` of the input against row `o` of the
    re-normalised matrix, plus the bias at `o`. -/
def output (x : (⟨3, ![4, 2048, 4096]⟩ : Shape).Idx → EReal) (w : (⟨2, ![4096, 4096]⟩ : Shape).Idx → EReal)
    (bias : (⟨1, ![4096]⟩ : Shape).Idx → EReal) (mv : (⟨2, ![1, 4096]⟩ : Shape).Idx → EReal)
    (A : (⟨2, ![16, 4096]⟩ : Shape).Idx → EReal) (B : (⟨2, ![4096, 16]⟩ : Shape).Idx → EReal) :
    (⟨3, ![4, 2048, 4096]⟩ : Shape).Idx → EReal := fun j =>
  (∑ k : Fin 4096, x (ix3 (j 0) (j 1) k) * renorm w B A mv (j 2) k) + bias (ix1 (j 2))

end Cert.DoraSpec

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColSum.lean ====
/-
  Column sums of a two-axis array, read at an index.

  A kernel sums the rows of an `[R, D]` block with a vector reduction over axis 0, keeps the result as one row `[1, D]`
  and may write that row `S` times over into an `[S, D]` block; the host sums the rows of an `[N, D]` array with a
  reduce from a rank-zero initial value. Read at the extended reals each is, at column `j`, the plain sum over the rows
  `∑ k, x (k, j)` (the host's after its initial value), whatever the extents.
-/
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.LibColSum

open Idealize.ShloMosaic Idealize.ShloMosaic.ValueIdx

/-- Over column `j` of the result, the source index with row `k` inserted on the dropped axis is `(k, j)`. -/
theorem lift_axis0 {R D : ℕ} (h : (⟨2, ![R, D]⟩ : Shape).Reduces [0] ⟨1, ![D]⟩) (j : Fin D) (k : Fin R) :
    h.lift (ix1 j) k = ix2 k j := by
  funext c
  match c with
  | ⟨0, _⟩ => exact Fin.ext rfl
  | ⟨1, _⟩ => exact Fin.ext rfl

/-- A vector reduction by addition over the rows of an `[R, D]` block, from the zero accumulator: at column `j` the
    sum of the column. -/
theorem vec_colsum_apply {R D : ℕ} (src : FVec Ideal ⟨2, ![R, D]⟩ .f32)
    (h : (⟨2, ![R, D]⟩ : Shape).Reduces [0] ⟨1, ![D]⟩) (hφ : FKind.Formats .f32)
    (hacc : (0x00000000#32 : BitVec FTy.f32.bits) = FKind.add.neutral .f32 hφ) (j : Fin D) :
    multiReduction .add [0] ⟨1, ![D]⟩ src 0x00000000#32 h hφ hacc (ix1 j) = ∑ k : Fin R, src (ix2 k j) := by
  refine (Ideal.multiReduction_add_single src 0x00000000#32 h hφ hacc (ix1 j)).trans ?_
  exact Finset.sum_congr rfl fun k _ => congrArg src (lift_axis0 h j k)

/-- The column sum kept as one row and written `S` times over: every row of the `[S, D]` block holds, at column `j`,
    the sum of column `j` of the source. -/
theorem padded_colsum_apply {R D S : ℕ} (src : FVec Ideal ⟨2, ![R, D]⟩ .f32)
    (h : (⟨2, ![R, D]⟩ : Shape).Reduces [0] ⟨1, ![D]⟩) (hφ : FKind.Formats .f32)
    (hacc : (0x00000000#32 : BitVec FTy.f32.bits) = FKind.add.neutral .f32 hφ)
    (c1 : (⟨1, ![D]⟩ : Shape).ShapeCasts ⟨2, ![1, D]⟩) (c2 : (⟨2, ![1, D]⟩ : Shape).ShapeCasts ⟨2, ![1, D]⟩)
    (b : (⟨2, ![1, D]⟩ : Shape).Broadcasts ⟨2, ![S, D]⟩) (p : Fin S) (j : Fin D) :
    broadcastTo ⟨2, ![S, D]⟩
        (shapeCast ⟨2, ![1, D]⟩ (shapeCast ⟨2, ![1, D]⟩ (multiReduction .add [0] ⟨1, ![D]⟩ src 0x00000000#32 h hφ hacc) c1) c2) b
        (ix2 p j)
      = ∑ k : Fin R, src (ix2 k j) := by
  rw [broadcastTo_1b_ab_apply, shapeCast_self, shapeCast_a_1a_apply]
  exact vec_colsum_apply src h hφ hacc j

/-- The host's sum over the rows of an `[N, D]` array from a rank-zero initial value: at column `j` the initial value
    plus the sum of the column. -/
theorem host_colsum_apply {N D : ℕ} (x : FVec Ideal ⟨2, ![N, D]⟩ .f32) (init : (⟨0, ![]⟩ : Shape).Idx → Ideal .f32)
    (h' : (⟨2, ![N, D]⟩ : Shape).ReducesTo [0] ⟨1, ![D]⟩) (hu : 0 < (⟨0, ![]⟩ : Shape).numel)
    (h : (⟨2, ![N, D]⟩ : Shape).Reduces [0] ⟨1, ![D]⟩) (j : Fin D) :
    Host.reduceAdd (F := Ideal) x init h' hu (ix1 j) = init (Shape.Idx.first hu) + ∑ k : Fin N, x (ix2 k j) := by
  show Ideal.hostReduceAdd h' x (init (Shape.Idx.first hu)) (ix1 j) = _
  refine (Ideal.hostReduceAdd_single h' h x _ (ix1 j)).trans ?_
  exact congrArg (init (Shape.Idx.first hu) + ·) (Finset.sum_congr rfl fun k _ => congrArg x (lift_axis0 h j k))

end Cert.LibColSum

end
-- ==== Proof.ColumnBlock.lean ====
/-
  What the first kernel stores, entry by entry.

  At one grid point the body holds all of `B` (4096 × 16), a block of 256 columns of `A` (16 × 256), the matching
  block of columns of `w` (4096 × 256) and of the magnitudes (1 × 256). Because the block has ALL 4096 rows, the sum of
  squares down a column of the block is the sum down the whole column of the matrix: entry `(o, j)` of what is stored
  is the re-normalised entry `renorm` of the block operands — the product `B · A` over its 16 terms, the update, the
  column's norm, the quotient and the magnitude, in that order. The change to half precision on the way out is the
  identity on extended reals.
-/
import proofs.«173504_j18373870092444_2_alg».proof.Proof.Gen.KernelIdeal.Skeleton
import proofs.«173504_j18373870092444_2_alg».proof.Proof.Spec
import proofs.«173504_j18373870092444_2_alg».proof.Proof.LibDot
import proofs.«173504_j18373870092444_2_alg».proof.Proof.LibColSum
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Hand

open Cert.KernelIdeal Cert.KernelIdeal.Gen Idealize.ShloMosaic Idealize.ShloMosaic.ValueIdx Cert.DoraSpec

/-- The updated block `w + 16 · (B · A)` as the body computes it. -/
abbrev updatedBlock (v0 : FVec Ideal S4096x16 .f32) (v1 : FVec Ideal S16x256 .f32) (v3 : FVec Ideal S4096x256 .f32) :
    FVec Ideal S4096x256 .f32 :=
  addf v3 (mulf (broadcast S4096x256 (FloatOps.ofBits (F := Ideal) .f32 0x41800000#32))
    (matmul (φ₁ := .f32) (φ₂ := .f32) dot_S4096x16_S16x256_S4096x256_1_0_0_1_n_n (some .fp32) v0 v1 (constant S4096x256 .f32 0x00000000#32)))

/-- Its entry `(o, j)`: the matrix unit's product into a zero accumulator is the 16-term sum. -/
theorem updatedBlock_apply (v0 : FVec Ideal S4096x16 .f32) (v1 : FVec Ideal S16x256 .f32) (v3 : FVec Ideal S4096x256 .f32)
    (o : Fin 4096) (j : Fin 256) : updatedBlock v0 v1 v3 (ix2 o j) = updated v3 v0 v1 o j := by
  show v3 (ix2 o j) + scale * (FloatOps.matmul (φ₁ := .f32) (φ₂ := .f32) dot_S4096x16_S16x256_S4096x256_1_0_0_1_n_n (some .fp32) v0 v1 (constant S4096x256 .f32 0x00000000#32) (ix2 o j)) = _
  rw [Ideal.matmul_constant_zero_apply, PlainDot.sum_eq dot_S4096x16_S16x256_S4096x256_1_0_0_1_n_n rfl rfl rfl rfl rfl rfl v0 v1 o j]
  rfl

/-- WHAT THE BODY STORES at `(o, j)` is the re-normalised entry of its block operands: the one row of magnitudes and
    the one row of norms are each read at column `j`, and the norm's sum of squares runs down all 4096 rows. -/
theorem stored_apply (v0 : FVec Ideal S4096x16 .f32) (v1 : FVec Ideal S16x256 .f32) (v3 : FVec Ideal S4096x256 .f32)
    (v11 : FVec Ideal S1x256 .f32) (o : Fin 4096) (j : Fin 256) :
    k0_pay1 (F := Ideal) v0 v1 v3 v11 (ix2 o j) = renorm v3 v0 v1 v11 o j := by
  unfold k0_pay1
  show (broadcastTo S4096x256 v11 broadcasts_S1x256_S4096x256 (ix2 o j))
      * Ideal.div (updatedBlock v0 v1 v3 (ix2 o j))
          (broadcastTo S4096x256 (sqrt (shapeCast S1x256 (multiReduction .add [0] S256
            (mulf (updatedBlock v0 v1 v3) (updatedBlock v0 v1 v3)) 0x00000000#32 reduces_S4096x256_S256 _ _) shapeCasts_S256_S1x256))
            broadcasts_S1x256_S4096x256 (ix2 o j)) = _
  rw [broadcastTo_1b_ab_apply, broadcastTo_1b_ab_apply]
  show v11 (ix2 0 j) * Ideal.div _ (Ideal.sqrt (shapeCast S1x256 (multiReduction .add [0] S256
            (mulf (updatedBlock v0 v1 v3) (updatedBlock v0 v1 v3)) 0x00000000#32 reduces_S4096x256_S256 _ _) shapeCasts_S256_S1x256 (ix2 0 j))) = _
  rw [shapeCast_a_1a_apply]
  refine (congrArg (fun s => v11 (ix2 0 j) * Ideal.div (updatedBlock v0 v1 v3 (ix2 o j)) (Ideal.sqrt s))
    (Cert.LibColSum.vec_colsum_apply (mulf (updatedBlock v0 v1 v3) (updatedBlock v0 v1 v3)) reduces_S4096x256_S256 _ _ j)).trans ?_
  unfold renorm colNorm
  simp only [mulf_apply, updatedBlock_apply]

end Cert.KernelIdeal.Hand

end
-- ==== Proof.ColumnsRegion.lean ====
/-
  The first region as one function of the arrays it is entered with.

  The region's grid has 16 points; point `t` works on columns `256 t … 256 t + 255`: it reads those columns of `w`,
  of `A` and of the magnitudes, all of `B`, and writes those columns of the result. Every block has all 4096 rows, so
  by column locality (`renorm_of_cols`) the block point `t` writes back is the block of the whole re-normalised matrix;
  the 16 column blocks tile the result, so after the region the result array IS the re-normalised matrix of the
  arrays as the region found them.
-/
import proofs.«173504_j18373870092444_2_alg».proof.Proof.Gen.KernelIdeal.Frame
import proofs.«173504_j18373870092444_2_alg».proof.Proof.Spec
import proofs.«173504_j18373870092444_2_alg».proof.Proof.ColumnBlock
import Idealize.ShloMosaic.Lib.ValueIdx
import Idealize.ShloMosaic.Lib.Pipeline.Value

set_option maxRecDepth 16384

open scoped BigOperators

noncomputable section

namespace Cert.KernelIdeal.Hand

open Cert.KernelIdeal Cert.KernelIdeal.Gen Idealize.ShloMosaic Idealize.ShloMosaic.TcCoe Idealize.ShloMosaic.ValueIdx
open Idealize.SL.Sem Cert.DoraSpec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The re-normalised matrix of the arrays the region is entered with. -/
def renormed (c : Dev nD) : S4096x4096.Idx → EReal := fun i =>
  renorm (V c main_arg1 : S4096x4096.Idx → EReal) (V c main_arg5 : S4096x16.Idx → EReal)
    (V c main_arg4 : S16x4096.Idx → EReal) (V c main_arg3 : S1x4096.Idx → EReal) (i 0) (i 1)

/-- The printed index maps over the 16 points: every window sits at row block 0; the windows that move take column
    block `t`; `B`'s window stays at block (0, 0). -/
theorem colIdx : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- WHAT POINT `t` WRITES BACK is block `t` of the re-normalised matrix. -/
theorem colFlushed (c : Dev nD) (t : Fin cfg0.N) :
    (dat0 V c).flushed 4 t = ((cfg0.win 4).blk t).view.read (Elt Ideal) (renormed V c) := by
  show (cfg0.win 4).cut (grid0.coords t) ((dat0 V c).after 4 t) = _
  rw [after0_4]
  unfold out0_4
  rw [View.canon_unit_zero hz2]
  simp only [View.ld_unit_zero (S := S4096x16) hz2, View.ld_unit_zero (S := S16x256) hz2,
    View.ld_unit_zero (S := S4096x256) hz2, View.ld_unit_zero (S := S1x256) hz2]
  obtain ⟨e00, e01, e10, e11, e20, e21, e30, e31, e40, e41⟩ := colIdx t
  have ht : t.val < 16 := lt_of_lt_of_eq t.isLt (show cfg0.N = 16 from N_0)
  funext y
  have hy0 : (y 0).val < 4096 := (y 0).isLt
  have hy1 : (y 1).val < 256 := (y 1).isLt
  obtain ⟨o, ho⟩ : ∃ o : Fin 4096, o.val = (y 0).val := ⟨⟨_, hy0⟩, rfl⟩
  obtain ⟨j, hj⟩ : ∃ j : Fin 256, j.val = (y 1).val := ⟨⟨_, hy1⟩, rfl⟩
  obtain ⟨i, hi⟩ : ∃ i : Fin 4096, i.val = t.val * 256 + (y 1).val := ⟨⟨_, by omega⟩, rfl⟩
  -- the stored entry sits at (o, j) of the block and at (o, i) of the matrix
  have hblk : (win0 4).xinj (grid0.coords t) y = ix2 o j := funext fun a => Fin.ext (by
    match a with
    | ⟨0, _⟩ => exact ho.symm
    | ⟨1, _⟩ => exact hj.symm)
  have harr : ((cfg0.win 4).blk t).view.emb y = ix2 o i := funext fun a => Fin.ext (by
    match a with
    | ⟨0, _⟩ => show win0_4.index t (0 : Fin 2) * 4096 + 1 * (y 0).val = o.val; omega
    | ⟨1, _⟩ => show win0_4.index t (1 : Fin 2) * 256 + 1 * (y 1).val = i.val; omega)
  show k0_pay1 (iblk0 V c 1 t) (iblk0 V c 2 t) (iblk0 V c 0 t) (iblk0 V c 3 t) ((win0 4).xinj (grid0.coords t) y)
      = renormed V c (((cfg0.win 4).blk t).view.emb y)
  rw [hblk, harr]
  refine (stored_apply _ _ _ _ o j).trans ?_
  -- each operand block, read in column j, is the operand array read in column i
  have hw : ∀ o' : Fin 4096, (iblk0 V c 0 t) (ix2 o' j) = (V c main_arg1 : S4096x4096.Idx → EReal) (ix2 o' i) := fun o' => by
    show V c main_arg1 (((cfg0.win 0).blk t).view.emb (ix2 o' j)) = _
    refine congrArg (V c main_arg1) (funext fun a => Fin.ext ?_)
    match a with
    | ⟨0, _⟩ => show win0_0.index t (0 : Fin 2) * 4096 + 1 * o'.val = o'.val; omega
    | ⟨1, _⟩ => show win0_0.index t (1 : Fin 2) * 256 + 1 * j.val = i.val; omega
  have hB : ∀ (o' : Fin 4096) (r : Fin 16), (iblk0 V c 1 t) (ix2 o' r) = (V c main_arg5 : S4096x16.Idx → EReal) (ix2 o' r) := fun o' r => by
    show V c main_arg5 (((cfg0.win 1).blk t).view.emb (ix2 o' r)) = _
    refine congrArg (V c main_arg5) (funext fun a => Fin.ext ?_)
    match a with
    | ⟨0, _⟩ => show win0_1.index t (0 : Fin 2) * 4096 + 1 * o'.val = o'.val; omega
    | ⟨1, _⟩ => show win0_1.index t (1 : Fin 2) * 16 + 1 * r.val = r.val; omega
  have hA : ∀ r : Fin 16, (iblk0 V c 2 t) (ix2 r j) = (V c main_arg4 : S16x4096.Idx → EReal) (ix2 r i) := fun r => by
    show V c main_arg4 (((cfg0.win 2).blk t).view.emb (ix2 r j)) = _
    refine congrArg (V c main_arg4) (funext fun a => Fin.ext ?_)
    match a with
    | ⟨0, _⟩ => show win0_2.index t (0 : Fin 2) * 16 + 1 * r.val = r.val; omega
    | ⟨1, _⟩ => show win0_2.index t (1 : Fin 2) * 256 + 1 * j.val = i.val; omega
  have hm : (iblk0 V c 3 t) (ix2 0 j) = (V c main_arg3 : S1x4096.Idx → EReal) (ix2 0 i) := by
    show V c main_arg3 (((cfg0.win 3).blk t).view.emb (ix2 0 j)) = _
    refine congrArg (V c main_arg3) (funext fun a => Fin.ext ?_)
    match a with
    | ⟨0, _⟩ => show win0_3.index t (0 : Fin 2) * 1 + 1 * 0 = 0; omega
    | ⟨1, _⟩ => show win0_3.index t (1 : Fin 2) * 256 + 1 * j.val = i.val; omega
  exact renorm_of_cols (V c main_arg1 : S4096x4096.Idx → EReal) (V c main_arg5 : S4096x16.Idx → EReal)
    (V c main_arg4 : S16x4096.Idx → EReal) (V c main_arg3 : S1x4096.Idx → EReal)
    (iblk0 V c 0 t) (iblk0 V c 1 t) (iblk0 V c 2 t) (iblk0 V c 3 t) i j hw hB hA hm o

/-- Every entry of the result lies in the block of the point that owns its column. -/
theorem colCover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 16 := N_0
  let t : Fin cfg0.N := ⟨(i 1).val / 256, lt_of_lt_of_eq (show (i 1).val / 256 < 16 by omega) hN.symm⟩
  obtain ⟨-, -, -, -, -, -, -, -, e40, e41⟩ := colIdx t
  have ht : t.val = (i 1).val / 256 := rfl
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 256 ≤ (i 1).val ∧ (i 1).val < win0_4.index t (1 : Fin 2) * 256 + 256
    omega

/-- THE RESULT ARRAY after the region is the re-normalised matrix of the arrays the region was entered with. -/
theorem colFinal (c : Dev nD) : (dat0 V c).arrAt 4 cfg0.N = renormed V c :=
  (dat0 V c).arrAt_eq_of_cover 4 (renormed V c) (fun t _ => colFlushed V c t) colCover

end Cert.KernelIdeal.Hand

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.GemmBlock.lean ====
/-
  What the second kernel stores, entry by entry.

  At one grid point the body holds 512 rows of the flattened input (512 × 4096), 512 rows of the re-normalised weight
  (512 × 4096, in half precision — the same extended reals) and the matching 512 entries of the bias as one row
  (1 × 512). It multiplies the input block by the TRANSPOSE of the weight block on the matrix unit, into a zero
  accumulator, and adds the bias row to every row: entry `(p, q)` is the 4096-term sum of `x (p, k) · W (q, k)` plus the
  bias at `q` — the linear layer `linear` of the block operands.
-/
import proofs.«173504_j18373870092444_2_alg».proof.Proof.Gen.KernelIdeal.Skeleton
import proofs.«173504_j18373870092444_2_alg».proof.Proof.Spec
import proofs.«173504_j18373870092444_2_alg».proof.Proof.LibDotT
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Hand

open Cert.KernelIdeal Cert.KernelIdeal.Gen Idealize.ShloMosaic Idealize.ShloMosaic.ValueIdx Cert.DoraSpec

/-- WHAT THE BODY STORES at `(p, q)` is the linear layer of its block operands: the casts of a shape to itself and the
    changes of format are the identity, the product into zeros is the sum over the 4096 shared coordinates, and the one
    bias row is read at column `q`. -/
theorem gemm_stored_apply (v0 : FVec Ideal S512x4096 .f32) (v3 : FVec Ideal S512x4096 .bf16) (v6 : FVec Ideal S1x512 .f32)
    (p q : Fin 512) :
    k1_pay1 (F := Ideal) v0 v3 v6 (ix2 p q) = linear v0 v3 v6 p q := by
  unfold k1_pay1
  show FloatOps.matmul (φ₁ := .bf16) (φ₂ := .bf16) dot_S512x4096_S512x4096_S512x512_1_1_0_0_n_n none
        (truncf .bf16 (shapeCast S512x4096 v0 shapeCasts_S512x4096_S512x4096) bitsLt_bf16_f32)
        (shapeCast S512x4096 v3 shapeCasts_S512x4096_S512x4096) (constant S512x512 .f32 0x00000000#32) (ix2 p q)
      + broadcastTo S512x512 (shapeCast S1x512 v6 shapeCasts_S1x512_S1x512) broadcasts_S1x512_S512x512 (ix2 p q) = _
  rw [broadcastTo_1b_ab_apply, shapeCast_self, shapeCast_self, shapeCast_self, Ideal.matmul_constant_zero_apply]
  unfold linear
  refine congrArg (· + v6 (ix2 0 q)) ?_
  exact Cert.LibDotT.sum_eq dot_S512x4096_S512x4096_S512x512_1_1_0_0_n_n rfl rfl rfl rfl rfl rfl
    (truncf .bf16 v0 bitsLt_bf16_f32) v3 p q

end Cert.KernelIdeal.Hand

end
-- ==== Proof.GemmRegion.lean ====
/-
  The second region as one function of the arrays it is entered with.

  The grid is 16 × 8: point `(a, b)` multiplies rows `512 a … 512 a + 511` of the flattened input by the transpose of
  rows `512 b … 512 b + 511` of the weight, adds entries `512 b … 512 b + 511` of the bias row, and writes block
  `(a, b)` of the result. An entry of a linear layer depends only on its row of the input, its row of the weight and its
  entry of the bias (`linear_of_rows`), so each block written back is the block of the whole layer's output; the 128
  blocks tile the result.
-/
import proofs.«173504_j18373870092444_2_alg».proof.Proof.Gen.KernelIdeal.Frame
import proofs.«173504_j18373870092444_2_alg».proof.Proof.Spec
import proofs.«173504_j18373870092444_2_alg».proof.Proof.GemmBlock
import Idealize.ShloMosaic.Lib.ValueIdx
import Idealize.ShloMosaic.Lib.Pipeline.Value

set_option maxRecDepth 16384

open scoped BigOperators

noncomputable section

namespace Cert.KernelIdeal.Hand

open Cert.KernelIdeal Cert.KernelIdeal.Gen Idealize.ShloMosaic Idealize.ShloMosaic.TcCoe Idealize.ShloMosaic.ValueIdx
open Idealize.SL.Sem Cert.DoraSpec
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The linear layer of the arrays the region is entered with: the flattened input, the weight, the bias row. -/
def projected (c : Dev nD) : S8192x4096.Idx → EReal := fun i =>
  linear (V c main_v1 : S8192x4096.Idx → EReal) (V c main_v0 : S4096x4096.Idx → EReal)
    (V c main_v2 : S1x4096.Idx → EReal) (i 0) (i 1)

/-- The printed index maps over the 128 points, point `t` being `(t / 8, t % 8)`: the input's row block is the first
    coordinate, the weight's row block and the bias's column block the second, the result's block both. -/
theorem gemmIdx : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- WHAT POINT `t` WRITES BACK is its block of the linear layer's output. -/
theorem gemmFlushed (c : Dev nD) (t : Fin cfg1.N) :
    (dat1 V c).flushed 3 t = ((cfg1.win 3).blk t).view.read (Elt Ideal) (projected V c) := by
  show (cfg1.win 3).cut (grid1.coords t) ((dat1 V c).after 3 t) = _
  rw [after1_3]
  unfold out1_3
  rw [View.canon_unit_zero hz2']
  simp only [View.ld_unit_zero (S := S512x4096) hz2', View.ld_unit_zero (S := S1x512) hz2']
  obtain ⟨e00, e01, e10, e11, e20, e21, e30, e31⟩ := gemmIdx t
  have ht : t.val < 128 := lt_of_lt_of_eq t.isLt (show cfg1.N = 128 from N_1)
  funext y
  have hy0 : (y 0).val < 512 := (y 0).isLt
  have hy1 : (y 1).val < 512 := (y 1).isLt
  obtain ⟨p, hp⟩ : ∃ p : Fin 512, p.val = (y 0).val := ⟨⟨_, hy0⟩, rfl⟩
  obtain ⟨q, hq⟩ : ∃ q : Fin 512, q.val = (y 1).val := ⟨⟨_, hy1⟩, rfl⟩
  obtain ⟨P, hP⟩ : ∃ P : Fin 8192, P.val = t.val / 8 * 512 + (y 0).val := ⟨⟨_, by omega⟩, rfl⟩
  obtain ⟨Q, hQ⟩ : ∃ Q : Fin 4096, Q.val = t.val % 8 * 512 + (y 1).val := ⟨⟨_, by omega⟩, rfl⟩
  -- the stored entry sits at (p, q) of the block and at (P, Q) of the result
  have hblk : (win1 3).xinj (grid1.coords t) y = ix2 p q := funext fun a => Fin.ext (by
    match a with
    | ⟨0, _⟩ => exact hp.symm
    | ⟨1, _⟩ => exact hq.symm)
  have harr : ((cfg1.win 3).blk t).view.emb y = ix2 P Q := funext fun a => Fin.ext (by
    match a with
    | ⟨0, _⟩ => show win1_3.index t (0 : Fin 2) * 512 + 1 * (y 0).val = P.val; omega
    | ⟨1, _⟩ => show win1_3.index t (1 : Fin 2) * 512 + 1 * (y 1).val = Q.val; omega)
  show k1_pay1 (iblk1 V c 0 t) (iblk1 V c 1 t) (iblk1 V c 2 t) ((win1 3).xinj (grid1.coords t) y)
      = projected V c (((cfg1.win 3).blk t).view.emb y)
  rw [hblk, harr]
  refine (gemm_stored_apply _ _ _ p q).trans ?_
  -- each operand block, read in its row, is the operand array read in the matching row
  have hx : ∀ k : Fin 4096, (iblk1 V c 0 t) (ix2 p k) = (V c main_v1 : S8192x4096.Idx → EReal) (ix2 P k) := fun k => by
    show V c main_v1 (((cfg1.win 0).blk t).view.emb (ix2 p k)) = _
    refine congrArg (V c main_v1) (funext fun a => Fin.ext ?_)
    match a with
    | ⟨0, _⟩ => show win1_0.index t (0 : Fin 2) * 512 + 1 * p.val = P.val; omega
    | ⟨1, _⟩ => show win1_0.index t (1 : Fin 2) * 4096 + 1 * k.val = k.val; omega
  have hW : ∀ k : Fin 4096, (iblk1 V c 1 t) (ix2 q k) = (V c main_v0 : S4096x4096.Idx → EReal) (ix2 Q k) := fun k => by
    show V c main_v0 (((cfg1.win 1).blk t).view.emb (ix2 q k)) = _
    refine congrArg (V c main_v0) (funext fun a => Fin.ext ?_)
    match a with
    | ⟨0, _⟩ => show win1_1.index t (0 : Fin 2) * 512 + 1 * q.val = Q.val; omega
    | ⟨1, _⟩ => show win1_1.index t (1 : Fin 2) * 4096 + 1 * k.val = k.val; omega
  have hb : (iblk1 V c 2 t) (ix2 0 q) = (V c main_v2 : S1x4096.Idx → EReal) (ix2 0 Q) := by
    show V c main_v2 (((cfg1.win 2).blk t).view.emb (ix2 0 q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * q.val = Q.val; omega
  exact linear_of_rows (V c main_v1 : S8192x4096.Idx → EReal) (V c main_v0 : S4096x4096.Idx → EReal)
    (V c main_v2 : S1x4096.Idx → EReal) (iblk1 V c 0 t) (iblk1 V c 1 t) (iblk1 V c 2 t) P Q p q hx hW hb

/-- Every entry of the result lies in the block of the point that owns its row block and its column block. -/
theorem gemmCover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨(i 0).val / 512 * 8 + (i 1).val / 512, lt_of_lt_of_eq (show (i 0).val / 512 * 8 + (i 1).val / 512 < 128 by omega) hN.symm⟩
  obtain ⟨-, -, -, -, -, -, e30, e31⟩ := gemmIdx t
  have ht : t.val = (i 0).val / 512 * 8 + (i 1).val / 512 := rfl
  refine ⟨t, flush1_3 t, ?_⟩
  show i ∈ ((View.whole main_v3).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 512 ≤ (i 1).val ∧ (i 1).val < win1_3.index t (1 : Fin 2) * 512 + 512
    omega

/-- THE RESULT ARRAY after the region is the linear layer's output of the arrays the region was entered with. -/
theorem gemmFinal (c : Dev nD) : (dat1 V c).arrAt 3 cfg1.N = projected V c :=
  (dat1 V c).arrAt_eq_of_cover 3 (projected V c) (fun t _ => gemmFlushed V c t) gemmCover

end Cert.KernelIdeal.Hand

end
-- ==== Proof.LibFlatten.lean ====
/-
  Merging and splitting the two leading axes of a rank-3 array, read at an index.

  A row-major `[a, b, c]` array and the `[n, c]` array with `n = a · b` rows have the same entries in the same order: row
  `p · b + q` of the flat array is row `(p, q)` of the other. Both directions of the cast are read at coordinates; the flat
  row is given as an index `pq : Fin n` with the equation `pq = p · b + q`, so that the lemmas apply whether the extent `n`
  is written as a product or as a literal.
-/
import Idealize.ShloMosaic.Lib.ValueIdx
import Idealize.ShloMosaic.Lib.Pipeline.Value

noncomputable section

namespace Cert.LibFlatten

open Idealize.ShloMosaic Idealize.ShloMosaic.ValueIdx

variable {α : Type}

/-- An `[a, b, c]` array cast to `[n, c]` reads, at `(p · b + q, r)`, the operand at `(p, q, r)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

/-- An `[n, c]` array cast to `[a, b, c]` reads, at `(p, q, r)`, the operand at `(p · b + q, r)`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ y h (ix3 p q r) = y (ix2 pq r) :=
  shapeCast_apply y h _ _ (by
    rw [Shape.rowMajor_val_two, Shape.rowMajor_val_three]
    show pq.val * c + r.val = (p.val * b + q.val) * c + r.val
    rw [hpq])

end Cert.LibFlatten

end
-- ==== Proof.KernelRun.lean ====
/-
  The whole kernel program, run: what its result array holds, as a function of the launch memory.

  The program is five steps: the first region (the re-normalised matrix from `w`, `B`, `A` and the magnitudes), two
  reshapes on the host (the input `[4, 2048, 4096]` flattened to `[8192, 4096]`, the bias `[4096]` as one row
  `[1, 4096]`), the second region (the linear layer of the flattened input, the first region's result and the bias
  row), and a last reshape of its `[8192, 4096]` result back to `[4, 2048, 4096]`.

  `run_named` is the program's run with the result array named at the last step's contents. `result_eq` reads those
  contents back through the five steps: flat row `2048 b + s` of the input is row `(b, s)`, so entry `(b, s, o)` of the
  result is `output` — row `(b, s)` of the input against row `o` of the re-normalised matrix, plus the bias at `o`.
-/
import proofs.«173504_j18373870092444_2_alg».proof.Proof.Gen.KernelIdeal.Frame
import proofs.«173504_j18373870092444_2_alg».proof.Proof.Spec
import proofs.«173504_j18373870092444_2_alg».proof.Proof.ColumnsRegion
import proofs.«173504_j18373870092444_2_alg».proof.Proof.GemmRegion
import proofs.«173504_j18373870092444_2_alg».proof.Proof.LibFlatten
import Idealize.ShloMosaic.Lib.ValueIdx
import Idealize.ShloMosaic.Lib.ValueLayout
import Idealize.ShloMosaic.Lib.Pipeline.Value
import Idealize.ShloMosaic.Lib.StableHlo.Run

set_option maxRecDepth 16384

open scoped BigOperators

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DoraSpec

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH THE RESULT NAMED: every weakly fair execution of the program terminates, nothing faulting, with the
    result array at the contents the last step leaves and the argument arrays as launched. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

section Value

variable (m : (ℓ : Loc nD τ sig) → Buf (Elt Ideal) ℓ) (ρ : Dev nD → PrngReg)

/-- The second region is entered with the input flattened, -/
theorem entry_x (c : Dev nD) : (V2 m ρ c main_v1 : S8192x4096.Idx → EReal)
    = shapeCast S8192x4096 (m ((c : Thread nD τ).loc main_arg0) : S4x2048x4096.Idx → EReal) shapeCasts_S4x2048x4096_S8192x4096 := by
  show StableHlo.after hostOps1 (W1 m ρ c) (Proc.devRef .tc main_v1) = _
  after_results
  rw [W1_of_ne m ρ c main_arg0 (by decide)]
  rfl

/-- the bias as one row, -/
theorem entry_b (c : Dev nD) : (V2 m ρ c main_v2 : S1x4096.Idx → EReal)
    = shapeCast S1x4096 (m ((c : Thread nD τ).loc main_arg2) : S4096.Idx → EReal) shapeCasts_S4096_S1x4096 := by
  show StableHlo.after hostOps1 (W1 m ρ c) (Proc.devRef .tc main_v2) = _
  after_results
  rw [W1_of_ne m ρ c main_arg2 (by decide)]
  rfl

/-- and the first region's result: the re-normalised matrix of the launch arrays. -/
theorem entry_w (c : Dev nD) : (V2 m ρ c main_v0 : S4096x4096.Idx → EReal) = renormed (V0 m ρ) c := by
  show StableHlo.after hostOps1 (W1 m ρ c) (Proc.devRef .tc main_v0) = _
  after_results
  exact (W1_arr m ρ c 4).trans (colFinal (V0 m ρ) c)

/-- The last step's contents of the result array: the second region's result, given its three axes back. -/
theorem tail_eq (c : Dev nD) : (W4 m ρ c (Proc.devRef .tc main_v4) : S4x2048x4096.Idx → EReal)
    = shapeCast S4x2048x4096 (projected (V2 m ρ) c) shapeCasts_S8192x4096_S4x2048x4096 := by
  show StableHlo.after hostOps2 (W3 m ρ c) (Proc.devRef .tc main_v4) = _
  after_results
  rw [show (W3 m ρ c (Proc.devRef .tc main_v3) : S8192x4096.Idx → EReal) = projected (V2 m ρ) c from
    (W3_arr m ρ c 3).trans (gemmFinal (V2 m ρ) c)]
  rfl

/-- THE RESULT ARRAY after the run is `output` of the launch arrays. -/
theorem result_eq (c : Dev nD) : (W4 m ρ c (Proc.devRef .tc main_v4) : S4x2048x4096.Idx → EReal)
    = output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_eq]
  funext i
  obtain ⟨b, s, o, rfl⟩ : ∃ (b : Fin 4) (s : Fin 2048) (o : Fin 4096), i = ix3 b s o := ⟨i 0, i 1, i 2, eq_ix3 i⟩
  obtain ⟨pq, hpq⟩ : ∃ pq : Fin 8192, pq.val = b.val * 2048 + s.val := ⟨⟨b.val * 2048 + s.val, by omega⟩, rfl⟩
  rw [Cert.LibFlatten.shapeCast_nc_abc_apply _ _ b s o pq hpq]
  show linear (V2 m ρ c main_v1 : S8192x4096.Idx → EReal) (V2 m ρ c main_v0 : S4096x4096.Idx → EReal)
      (V2 m ρ c main_v2 : S1x4096.Idx → EReal) pq o = _
  rw [entry_x, entry_w, entry_b]
  unfold linear output
  rw [shapeCast_a_1a_apply]
  refine congrArg (· + (m ((c : Thread nD τ).loc main_arg2) : S4096.Idx → EReal) (ix1 o)) (Finset.sum_congr rfl fun k _ => ?_)
  rw [Cert.LibFlatten.shapeCast_abc_nc_apply _ _ b s k pq hpq]
  rfl

/-- THE KERNEL PROGRAM'S RUN, READ: the result array at `output` of the launch arrays, the arguments unchanged. -/
theorem run : θ_run defs (onTc (τ := τ) (main (F := Ideal))) ⟨m, fun _ => 0, ρ⟩ (fun r => ∀ c : Dev nD,
      r.2.mem ((c.tc : Thread nD τ).loc main_v4)
        = output (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Value

end Cert.KernelIdeal.Hand

end
-- ==== Proof.RefValue.lean ====
/-
  The reference, read at an index: its result is `output` of its arguments.

  The reference computes the same quantities with whole-array operations: `B · A` as one product, the update, the sum
  of squares down each column as a reduction over the row axis (from the initial value zero), the square root, the
  quotient and the magnitude broadcast over the rows, then the contraction of the input's last axis with the
  re-normalised matrix's second axis, and the bias broadcast over the two leading axes. Read at `(b, s, o)`, each
  whole-array operation reads its operands at the matching entries, which is `output` term by term.
-/
import proofs.«173504_j18373870092444_2_alg».proof.Proof.Gen.ReferenceIdeal.Read
import proofs.«173504_j18373870092444_2_alg».proof.Proof.Spec
import Idealize.ShloMosaic.PureOps.Ideal.Laws
import Idealize.ShloMosaic.Lib.ValueIdx

open scoped BigOperators

noncomputable section

namespace Cert.ReferenceIdeal.Hand

open Cert.ReferenceIdeal Cert.ReferenceIdeal.Gen Cert.ReferenceIdeal.Read
open Idealize.ShloMosaic Idealize.ShloMosaic.ValueIdx Cert.DoraSpec

/-- The reference's updated matrix at `(o, i)`. -/
theorem updated_apply (x1 : S4096x4096.Idx → EReal) (x4 : S16x4096.Idx → EReal) (x5 : S4096x16.Idx → EReal) (o i : Fin 4096) :
    val_main_v3 (F := Ideal) x1 x4 x5 (ix2 o i) = updated x1 x5 x4 o i := by
  rw [val_main_v3_apply, val_main_v2_apply, val_main_v1_apply, val_main_cst_apply, val_main_v0_apply]
  have hl : ∀ r : Fin 16, lidx_main_v0 (ix2 o i) r = ix2 o r := fun r => funext fun a => Fin.ext (by
    match a with
    | ⟨0, _⟩ => rfl
    | ⟨1, _⟩ => rfl)
  have hr : ∀ r : Fin 16, ridx_main_v0 (ix2 o i) r = ix2 r i := fun r => funext fun a => Fin.ext (by
    match a with
    | ⟨0, _⟩ => rfl
    | ⟨1, _⟩ => rfl)
  simp only [hl, hr]
  rfl

/-- The reference's re-normalised matrix at `(o, i)`: the reduction's initial value is zero. -/
theorem renorm_apply (x1 : S4096x4096.Idx → EReal) (x3 : S1x4096.Idx → EReal) (x4 : S16x4096.Idx → EReal)
    (x5 : S4096x16.Idx → EReal) (o i : Fin 4096) :
    val_main_v11 (F := Ideal) x1 x3 x4 x5 (ix2 o i) = renorm x1 x5 x4 x3 o i := by
  rw [val_main_v11_apply, val_main_v10_apply, val_main_v9_apply, val_main_v8_apply, val_main_v7_apply, val_main_v6_apply,
    val_main_v5_apply, val_main_cst_0_apply]
  have h10 : idx_main_v10 (ix2 o i) = ix2 (0 : Fin 1) i := funext fun a => Fin.ext (by
    match a with
    | ⟨0, _⟩ => rfl
    | ⟨1, _⟩ => rfl)
  have h6 : idx_main_v6 (idx_main_v8 (ix2 o i)) = ix1 i := funext fun a => Fin.ext (by
    match a with
    | ⟨0, _⟩ => rfl)
  have h5 : ∀ k : Fin 4096, idx_main_v5 (ix1 i) k = ix2 k i := fun k => funext fun a => Fin.ext (by
    match a with
    | ⟨0, _⟩ => rfl
    | ⟨1, _⟩ => rfl)
  simp only [h10, h6, h5, val_main_v4_apply, updated_apply]
  show x3 (ix2 0 i) * Ideal.div (updated x1 x5 x4 o i)
      (Ideal.sqrt (Ideal.ofBits .f32 0x00000000#32 + ∑ k : Fin 4096, updated x1 x5 x4 k i * updated x1 x5 x4 k i)) = _
  rw [Ideal.ofBits_zero_f32, zero_add]
  rfl

/-- THE REFERENCE'S RESULT is `output` of its arguments. -/
theorem result_eq (x0 : S4x2048x4096.Idx → EReal) (x1 : S4096x4096.Idx → EReal) (x2 : S4096.Idx → EReal)
    (x3 : S1x4096.Idx → EReal) (x4 : S16x4096.Idx → EReal) (x5 : S4096x16.Idx → EReal) :
    val_main_v15 (F := Ideal) x0 x1 x2 x3 x4 x5 = output x0 x1 x2 x3 x4 x5 := by
  funext i
  obtain ⟨b, s, o, rfl⟩ : ∃ (b : Fin 4) (s : Fin 2048) (o : Fin 4096), i = ix3 b s o := ⟨i 0, i 1, i 2, eq_ix3 i⟩
  rw [val_main_v15_apply, val_main_v12_apply, val_main_v14_apply, val_main_v13_apply]
  have hl : ∀ k : Fin 4096, lidx_main_v12 (ix3 b s o) k = ix3 b s k := fun k => funext fun a => Fin.ext (by
    match a with
    | ⟨0, _⟩ => rfl
    | ⟨1, _⟩ => rfl
    | ⟨2, _⟩ => rfl)
  have hr : ∀ k : Fin 4096, ridx_main_v12 (ix3 b s o) k = ix2 o k := fun k => funext fun a => Fin.ext (by
    match a with
    | ⟨0, _⟩ => rfl
    | ⟨1, _⟩ => rfl)
  have hb : idx_main_v13 (idx_main_v14 (ix3 b s o)) = ix1 o := funext fun a => Fin.ext (by
    match a with
    | ⟨0, _⟩ => rfl)
  simp only [hl, hr, hb, renorm_apply]
  rfl

end Cert.ReferenceIdeal.Hand

end
-- ==== Proof.lean ====
/-
  The adapter kernel against its reference: both compute, at the extended reals, the linear layer `x · Wᵀ + bias`
  whose weight `W` is the matrix `w + 16 · (B · A)` with every column divided by its Euclidean norm and multiplied by
  the column's magnitude.

  The kernel does it in two regions. The first walks the matrix in 16 blocks of 256 columns; each block has all 4096
  rows, so the norm of a column is computed inside the block that holds it, and the blocks together are the whole
  re-normalised matrix (Proof/ColumnBlock.lean, Proof/ColumnsRegion.lean). The second walks the flattened input and
  the weight in 16 × 8 blocks of 512 rows each, and every block of the result is the matching block of the linear
  layer (Proof/GemmBlock.lean, Proof/GemmRegion.lean). Between and around the regions the host only re-lays arrays
  out; Proof/KernelRun.lean reads the result array through all five steps. The reference computes the same entry with
  whole-array operations (Proof/RefValue.lean). Both sides meet at ONE function, `Cert.DoraSpec.output`
  (Proof/Spec.lean): no algebraic law beyond the definition of the two matrix products and of the column sum as plain
  sums is needed, so the precondition is not opened; changes of float format are the identity on extended reals, and
  the idealization rewrote nothing, so the claim that it preserves the kernel is trivial.
-/
import proofs.«173504_j18373870092444_2_alg».proof.Defs
import proofs.«173504_j18373870092444_2_alg».proof.Proof.Gen.Kernel
import proofs.«173504_j18373870092444_2_alg».proof.Proof.Gen.Kernel.Skeleton
import proofs.«173504_j18373870092444_2_alg».proof.Proof.Gen.Kernel.Launch
import proofs.«173504_j18373870092444_2_alg».proof.Proof.Gen.Kernel.Points
import proofs.«173504_j18373870092444_2_alg».proof.Proof.Gen.Kernel.Frame
import proofs.«173504_j18373870092444_2_alg».proof.Proof.Gen.KernelIdeal
import proofs.«173504_j18373870092444_2_alg».proof.Proof.Gen.KernelIdeal.Skeleton
import proofs.«173504_j18373870092444_2_alg».proof.Proof.Gen.KernelIdeal.Launch
import proofs.«173504_j18373870092444_2_alg».proof.Proof.Gen.KernelIdeal.Points
import proofs.«173504_j18373870092444_2_alg».proof.Proof.Gen.KernelIdeal.Frame
import proofs.«173504_j18373870092444_2_alg».proof.Proof.Gen.ReferenceIdeal
import proofs.«173504_j18373870092444_2_alg».proof.Proof.Gen.ReferenceIdeal.Run
import proofs.«173504_j18373870092444_2_alg».proof.Proof.Gen.ReferenceIdeal.Read
import proofs.«173504_j18373870092444_2_alg».proof.Proof.Gen.Pre_finite_inputs
import proofs.«173504_j18373870092444_2_alg».proof.Proof.KernelRun
import proofs.«173504_j18373870092444_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, both programs end with their result array at `output` of those
    arguments. -/
theorem algebraic : Cert.algebraic_KernelIdeal_ReferenceIdeal := by
  intro m ρ m' ρ' _ hagree
  refine ⟨fun c => Cert.DoraSpec.output (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v15_eq _ _ _ _ _ _).trans
    (Cert.ReferenceIdeal.Hand.result_eq _ _ _ _ _ _)).trans ?_
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
